-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S64x512 : Shape := ⟨2, ![64, 512]⟩
abbrev S512x2048 : Shape := ⟨2, ![512, 2048]⟩
abbrev S2048x512 : Shape := ⟨2, ![2048, 512]⟩
abbrev S1x4096 : Shape := ⟨2, ![1, 4096]⟩
abbrev S1 : Shape := ⟨1, ![1]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x4096 .f32) (main_arg5 : FVec F S1 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x4096x2048 .f32) (main_arg1 : FVec F S64x512 .f32) (main_arg2 : FVec F S512x2048 .f32) (main_arg3 : FVec F S2048x512 .f32) (main_arg4 : FVec F S1x4096 .f32) (main_arg5 : FVec F S1 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_v13 main_v16
-- ==== Kernel.lean ====
abbrev S8x4096x2048 : Shape := ⟨3, ![8, 4096, 2048]⟩
abbrev S64x512 : Shape := ⟨2, ![64, 512]⟩
abbrev S512x2048 : Shape := ⟨2, ![512, 2048]⟩
abbrev S2048x512 : Shape := ⟨2, ![2048, 512]⟩
abbrev S1x4096 : Shape := ⟨2, ![1, 4096]⟩
abbrev S1 : Shape := ⟨1, ![1]⟩
abbrev S1x1 : Shape := ⟨2, ![1, 1]⟩
abbrev S1x512x2048 : Shape := ⟨3, ![1, 512, 2048]⟩
abbrev S512x512 : Shape := ⟨2, ![512, 512]⟩
abbrev S512x64 : Shape := ⟨2, ![512, 64]⟩
abbrev S512 : Shape := ⟨1, ![512]⟩
abbrev S512x1 : Shape := ⟨2, ![512, 1]⟩
abbrev S1x2048 : Shape := ⟨2, ![1, 2048]⟩

abbrev nBuf : Space → Nat
  | .hbm => 10
  | .vmem => 9
  | .smem => 0
  | _ => 0

abbrev bufTy : (tb : Table) → Fin (tcTables nBuf tb) → BufTy
  | .hbm, ⟨0, _⟩ => ⟨S8x4096x2048, .f32⟩
  | .hbm, ⟨1, _⟩ => ⟨S64x512, .f32⟩
  | .hbm, ⟨2, _⟩ => ⟨S512x2048, .f32⟩
  | .hbm, ⟨3, _⟩ => ⟨S2048x512, .f32⟩
  | .hbm, ⟨4, _⟩ => ⟨S1x4096, .f32⟩
  | .hbm, ⟨5, _⟩ => ⟨S1, .f32⟩
  | .hbm, ⟨6, _⟩ => ⟨S512x2048, .bf16⟩
  | .hbm, ⟨7, _⟩ => ⟨S2048x512, .bf16⟩
  | .hbm, ⟨8, _⟩ => ⟨S1x1, .f32⟩
  | .hbm, ⟨9, _⟩ => ⟨S8x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S64x512, .f32⟩
  | .local _ .vmem, ⟨3, _⟩ => ⟨S512x2048, .bf16⟩
  | .local _ .vmem, ⟨4, _⟩ => ⟨S2048x512, .bf16⟩
  | .local _ .vmem, ⟨5, _⟩ => ⟨S1x4096, .f32⟩
  | .local _ .vmem, ⟨6, _⟩ => ⟨S1x1, .f32⟩
  | .local _ .vmem, ⟨7, _⟩ => ⟨S1x512x2048, .f32⟩
  | .local _ .vmem, ⟨8, _⟩ => ⟨S1x512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S1_S1x1 : S1.ShapeCasts S1x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S64x512_S64x512_0_0 : ∀ a, (![0, 0] : Fin 2 → Nat) a + S64x512.size a ≤ S64x512.size a
  h_S64x512 : 0 < S64x512.numel
  reduces_S512x64_S512 : S512x64.Reduces [1] S512
  shapeCasts_S512_S512x1 : S512.ShapeCasts S512x1
  broadcasts_S512x1_S512x64 : S512x1.Broadcasts S512x64
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x4096_S1x4096_0_0 : ∀ a, (![0, 0] : Fin 2 → Nat) a + S1x4096.size a ≤ S1x4096.size a
  h_S1x4096 : 0 < S1x4096.numel
  slices_S1x4096_o0_0_S1x2048 : S1x4096.Slices ![0, 0] S1x2048
  slices_S1x4096_o0_2048_S1x2048 : S1x4096.Slices ![0, 2048] S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x2048_S512x2048 : S1x2048.Broadcasts S512x2048
  reduces_S512x2048_S512 : S512x2048.Reduces [1] S512
  broadcasts_S1x1_S512x1 : S1x1.Broadcasts S512x1
  broadcasts_S512x1_S512x2048 : S512x1.Broadcasts S512x2048
  shapeCasts_S512x2048_S1x512x2048 : S512x2048.ShapeCasts S1x512x2048
  dot_S512x2048_S512x2048_S512x512_1_1_0_0_n_n_wf : DotDims.WF S512x2048 S512x2048 S512x512 [1] [1] [0] [0] [] []
  dot_S512x512_S64x512_S512x64_1_1_0_0_n_n_wf : DotDims.WF S512x512 S64x512 S512x64 [1] [1] [0] [0] [] []
  dot_S512x64_S64x512_S512x512_1_0_0_1_n_n_wf : DotDims.WF S512x64 S64x512 S512x512 [1] [0] [0] [1] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S8x4096x2048.size a
  hwx0_6 : ∀ i : grid0.Coords, EltTy.bits .f32 = 32 ∨ (Rect.block (s := S8x4096x2048) S1x512x2048.size (cc0_transform_6 i) (hinb0_6 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S64x512_S512x64_1_1_0_0_n_n : DotDims S512x512 S64x512 S512x64 where
  lhsContracting := [1]
  rhsContracting := [1]
  lhsNonContracting := [0]
  rhsNonContracting := [0]
  lhsBatch := []
  rhsBatch := []
  wf := dot_S512x512_S64x512_S512x64_1_1_0_0_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S64x512 : Shape := ⟨2, ![64, 512]⟩
abbrev S512x2048 : Shape := ⟨2, ![512, 2048]⟩
abbrev S2048x512 : Shape := ⟨2, ![2048, 512]⟩
abbrev S1x4096 : Shape := ⟨2, ![1, 4096]⟩
abbrev S1 : Shape := ⟨1, ![1]⟩
abbrev S8x4096x512 : Shape := ⟨3, ![8, 4096, 512]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S1x2048 : Shape := ⟨2, ![1, 2048]⟩
abbrev S1x1x1 : Shape := ⟨3, ![1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S64x512, .f32⟩
  | .hbm, ⟨2, _⟩ => ⟨S512x2048, .f32⟩
  | .hbm, ⟨3, _⟩ => ⟨S2048x512, .f32⟩
  | .hbm, ⟨4, _⟩ => ⟨S1x4096, .f32⟩
  | .hbm, ⟨5, _⟩ => ⟨S1, .f32⟩
  | .hbm, ⟨6, _⟩ => ⟨S8x4096x512, .f32⟩
  | .hbm, ⟨7, _⟩ => ⟨S8x4096x64, .f32⟩
  | .hbm, ⟨8, _⟩ => ⟨S_, .f32⟩
  | .hbm, ⟨9, _⟩ => ⟨S8x4096x64, .f32⟩
  | .hbm, ⟨10, _⟩ => ⟨S8x4096x64, .f32⟩
  | .hbm, ⟨11, _⟩ => ⟨S_, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096x1, .f32⟩
  | .hbm, ⟨17, _⟩ => ⟨S8x4096x64, .f32⟩
  | .hbm, ⟨18, _⟩ => ⟨S8x4096x64, .f32⟩
  | .hbm, ⟨19, _⟩ => ⟨S8x4096x64, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x64, .f32⟩
  | .hbm, ⟨24, _⟩ => ⟨S8x4096x64, .f32⟩
  | .hbm, ⟨25, _⟩ => ⟨S8x4096x512, .f32⟩
  | .hbm, ⟨26, _⟩ => ⟨S8x4096x2048, .f32⟩
  | .hbm, ⟨27, _⟩ => ⟨S1x2048, .f32⟩
  | .hbm, ⟨28, _⟩ => ⟨S8x4096x1, .f32⟩
  | .hbm, ⟨29, _⟩ => ⟨S1x2048, .f32⟩
  | .hbm, ⟨30, _⟩ => ⟨S8x4096x1, .f32⟩
  | .hbm, ⟨31, _⟩ => ⟨S8x4096x1, .f32⟩
  | .hbm, ⟨32, _⟩ => ⟨S1x1x1, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x2048, .f32⟩
  | .hbm, ⟨44, _⟩ => ⟨S8x4096x2048, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  bcast_S_S8x4096x64 : S_.BroadcastsInDim S8x4096x64 (![] : Fin 0 → Fin S8x4096x64.rank)
  reducesTo_S8x4096x64_S8x4096_d2 : S8x4096x64.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x64_0_1_2 : S8x4096x1.BroadcastsInDim S8x4096x64 (![0, 1, 2] : Fin 3 → Fin S8x4096x64.rank)
  slices_S1x4096_S1x2048_0_0 : S1x4096.Slices ![0, 0] S1x2048
  slices_S1x4096_S1x2048_0_2048 : S1x4096.Slices ![0, 2048] S1x2048
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  dot_S8x4096x2048_S512x2048_S8x4096x512_2_1_01_0_n_n_wf : DotDims.WF S8x4096x2048 S512x2048 S8x4096x512 [2] [1] [0, 1] [0] [] []
  dot_S8x4096x512_S64x512_S8x4096x64_2_1_01_0_n_n_wf : DotDims.WF S8x4096x512 S64x512 S8x4096x64 [2] [1] [0, 1] [0] [] []
  dot_S8x4096x64_S64x512_S8x4096x512_2_0_01_1_n_n_wf : DotDims.WF S8x4096x64 S64x512 S8x4096x512 [2] [0] [0, 1] [1] [] []
  dot_S8x4096x512_S2048x512_S8x4096x2048_2_1_01_0_n_n_wf : DotDims.WF S8x4096x512 S2048x512 S8x4096x2048 [2] [1] [0, 1] [0] [] []
  dot_S8x4096x2048_S1x2048_S8x4096x1_2_1_01_0_n_n_wf : DotDims.WF S8x4096x2048 S1x2048 S8x4096x1 [2] [1] [0, 1] [0] [] []

variable [Facts₀]

def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf
def dot_S8x4096x512_S64x512_S8x4096x64_2_1_01_0_n_n : DotDims S8x4096x512 S64x512 S8x4096x64 where
  lhsContracting := [2]
  rhsContracting := [1]
  lhsNonContracting := [0, 1]
  rhsNonContracting := [0]
  lhsBatch := []
  rhsBatch := []
  wf := dot_S8x4096x512_S64x512_S8x4096x64_2_1_01_0_n_n_wf
def dot_S8x4096x64_S64x512_S8x4096x512_2_0_01_1_n_n : DotDims S8x4096x64 S64x512 S8x4096x512 where
  lhsContracting := [2]
  rhsContracting := [0]
  lhsNonContracting := [0, 1]
  rhsNonContracting := [1]
  lhsBatch := []
  rhsBatch := []
  wf := dot_S8x4096x64_S64x512_S8x4096x512_2_0_01_1_n_n_wf
def dot_S8x4096x512_S2048x512_S8x4096x2048_2_1_01_0_n_n : DotDims S8x4096x512 S2048x512 S8x4096x2048 where
  lhsContracting := [2]
  rhsContracting := [1]
  lhsNonContracting := [0, 1]
  rhsNonContracting := [0]
  lhsBatch := []
  rhsBatch := []
  wf := dot_S8x4096x512_S2048x512_S8x4096x2048_2_1_01_0_n_n_wf
def dot_S8x4096x2048_S1x2048_S8x4096x1_2_1_01_0_n_n : DotDims S8x4096x2048 S1x2048 S8x4096x1 where
  lhsContracting := [2]
  rhsContracting := [1]
  lhsNonContracting := [0, 1]
  rhsNonContracting := [0]
  lhsBatch := []
  rhsBatch := []
  wf := dot_S8x4096x2048_S1x2048_S8x4096x1_2_1_01_0_n_n_wf

class Facts : Prop extends Facts₀ where

variable [Facts]
-- ==== Proof.Consts.lean ====
/-
  The three float words the two programs spell, as the extended reals they denote: 1.0, and the temperature
  0.1 as the single-precision number nearest to it, 13421773 / 2^27 (sign 0, exponent field 123, fraction field
  5033165: 2^(123-127) * (1 + 5033165 / 2^23)).  That number is not 1/10, and its reciprocal, 2^27 / 13421773, is
  the scale the logits are multiplied by.
-/
import Idealize.ShloMosaic.PureOps.Ideal

noncomputable section

namespace Cert.MemoryBank.Consts

open Idealize.ShloMosaic

/-- The word of 1.0 denotes 1. -/
theorem word_one : Ideal.ofBits .f32 0x3F800000#32 = 1 := by
  simp [Ideal.ofBits, Ideal.ieee, -EReal.coe_mul]; norm_num

/-- The word of the temperature denotes 13421773 / 134217728. -/
theorem word_temp : Ideal.ofBits .f32 0x3DCCCCCD#32 = ((13421773 / 134217728 : ℝ) : EReal) := by
  simp [Ideal.ofBits, Ideal.ieee, -EReal.coe_mul]; norm_num

end Cert.MemoryBank.Consts

end
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.RowSpec.lean ====
/-
  Attention over a memory bank, one row at a time, on the extended reals.

  For a row x of 2048 numbers: the query q(m) = sum_d x(d) * K(m,d); the logit of slot n is
  (sum_m q(m) * M(n,m)) / T, written as a product with 1/T; the attention weights are the softmax of the 64 logits
  (shifted by their maximum, each exponential divided by the sum of the exponentials); the retrieved vector is
  r(m) = sum_n a(n) * M(n,m) and its projection p(d) = sum_m r(m) * W(d,m); the gate is the logistic function of
  sum_d x(d) * g1(d) + sum_d p(d) * g2(d) + b; and the result is gate * x(d) + (1 - gate) * p(d).

  Every step is a finite sum of products, a maximum, an exponential or a quotient, taken in one fixed order, so the
  function is defined on all extended reals; the only law needed to compare two spellings of it is that dividing by
  the nonzero real T is multiplying by 1/T, which holds at the infinities too.
-/
import proofs.«130736_j9328668967109_2_alg».proof.Proof.Consts
import proofs.«130736_j9328668967109_2_alg».proof.Proof.LibRowReduce

noncomputable section

open scoped BigOperators

namespace Cert.MemoryBank

open Idealize.ShloMosaic

/-- The reciprocal of the temperature T = 13421773 / 2^27. -/
def invTemp : EReal := ((134217728 / 13421773 : ℝ) : EReal)

/-- Dividing by the temperature's word is multiplying by `invTemp`, for every extended real. -/
theorem div_temp (s : EReal) : Ideal.div s (Ideal.ofBits .f32 0x3DCCCCCD#32) = s * invTemp := by
  rw [Consts.word_temp, Ideal.div_coe (by norm_num : (13421773 / 134217728 : ℝ) ≠ 0)]
  unfold invTemp
  congr 2
  norm_num

/-- The word of minus infinity, the starting value of both programs' row maximum. -/
abbrev negInf : EReal := Ideal.ofBits .f32 0xFF800000#32

/-- Softmax of a row of 64 logits: shift by the row's maximum, exponentiate, divide by the sum. -/
def softmaxRow (lg : Fin 64 → EReal) (n : Fin 64) : EReal :=
  Ideal.div (Ideal.exp (lg n - max negInf (RowReduce.foldMax negInf lg)))
    (∑ j : Fin 64, Ideal.exp (lg j - max negInf (RowReduce.foldMax negInf lg)))

section Row

variable (mem : Fin 64 → Fin 512 → EReal) (kw : Fin 512 → Fin 2048 → EReal) (vw : Fin 2048 → Fin 512 → EReal)
  (gx gr : Fin 2048 → EReal) (gb : EReal) (xr : Fin 2048 → EReal)

/-- The query: the row against each row of the key weights. -/
def query (m : Fin 512) : EReal := ∑ d : Fin 2048, xr d * kw m d

/-- The logit of slot n: the query against the slot's row of the memory, times 1/T. -/
def logit (n : Fin 64) : EReal := (∑ m : Fin 512, query kw xr m * mem n m) * invTemp

/-- The retrieved vector: the attention weights against the memory's columns. -/
def retrieved (m : Fin 512) : EReal := ∑ n : Fin 64, softmaxRow (logit mem kw xr) n * mem n m

/-- Its projection back to the row's width. -/
def projected (d : Fin 2048) : EReal := ∑ m : Fin 512, retrieved mem kw xr m * vw d m

/-- The gate: the logistic function of the two inner products plus the bias. -/
def gate : EReal :=
  Ideal.logistic ((∑ d : Fin 2048, xr d * gx d) + (∑ d : Fin 2048, projected mem kw vw xr d * gr d) + gb)

/-- The row of the result. -/
def rowOut (d : Fin 2048) : EReal :=
  gate mem kw vw gx gr gb xr * xr d
    + (Ideal.ofBits .f32 0x3F800000#32 - gate mem kw vw gx gr gb xr) * projected mem kw vw xr d

end Row

/-! ## The whole array -/

open Idealize.ShloMosaic.ValueIdx

/-- The first and the second half of the 4096 gate weights. -/
def lo (d : Fin 2048) : Fin 4096 := ⟨d.val, by have := d.isLt; omega⟩
def hi (d : Fin 2048) : Fin 4096 := ⟨2048 + d.val, by have := d.isLt; omega⟩

/-- The result array as one function of the six argument arrays: entry (b, p, d) is the row function at row (b, p)
    of x, read at d. -/
def G (x0 : (⟨3, ![8, 4096, 2048]⟩ : Shape).Idx → EReal) (x1 : (⟨2, ![64, 512]⟩ : Shape).Idx → EReal)
    (x2 : (⟨2, ![512, 2048]⟩ : Shape).Idx → EReal) (x3 : (⟨2, ![2048, 512]⟩ : Shape).Idx → EReal)
    (x4 : (⟨2, ![1, 4096]⟩ : Shape).Idx → EReal) (x5 : (⟨1, ![1]⟩ : Shape).Idx → EReal) :
    (⟨3, ![8, 4096, 2048]⟩ : Shape).Idx → EReal := fun i =>
  rowOut (fun n m => x1 (ix2 n m)) (fun m d => x2 (ix2 m d)) (fun d m => x3 (ix2 d m))
    (fun d => x4 (ix2 (0 : Fin 1) (lo d))) (fun d => x4 (ix2 (0 : Fin 1) (hi d))) (x5 (ix1 (0 : Fin 1)))
    (fun d => x0 (ix3 (i 0) (i 1) d)) (i 2)

end Cert.MemoryBank

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.KernelRow.lean ====
/-
  The kernel's block, row by row.

  At one grid point the kernel holds a block of 512 rows of x and the whole of the memory M, the key weights K, the
  value weights W, the gate weights and the gate bias.  Each of its four matrix products starts from a zero
  accumulator, so on the extended reals it is the plain sum of products; the maximum and the sum taken along a
  row are a fold of max and a finite sum over the row's 64 entries; a row statistic kept as a column and broadcast
  back reads the statistic of its row.  Hence every entry (r, d) of what the kernel stores depends on row r of the
  block alone, and is the row function of RowSpec at that row.
-/
import proofs.«130736_j9328668967109_2_alg».proof.Proof.Gen.KernelIdeal.Frame
import proofs.«130736_j9328668967109_2_alg».proof.Proof.RowSpec
import proofs.«130736_j9328668967109_2_alg».proof.Proof.LibRowOps
import proofs.«130736_j9328668967109_2_alg».proof.Proof.LibColsMatmul
import proofs.«130736_j9328668967109_2_alg».proof.Proof.LibRowReduce
import Idealize.ShloMosaic.PureOps.IdealRules
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.MemoryBank.KernelRow

open Idealize.ShloMosaic Idealize.ShloMosaic.ValueIdx Cert.KernelIdeal Cert.KernelIdeal.Gen

/-! ## Matrix products into a zero accumulator, at any contraction precision -/

/-- Rows against rows: the entry (p, e) is the sum over k of x(p,k) * w(e,k). -/
theorem rows_product {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = Cert.RowOps.rowsDims wf)
    (prec : Option ContractPrecision)
    (x : FVec Ideal ⟨2, ![a, n]⟩ φ₁) (w : FVec Ideal ⟨2, ![b, n]⟩ φ₂) (p : Fin a) (e : Fin b) :
    FloatOps.matmul d prec x w (constant ⟨2, ![a, b]⟩ .f32 0x00000000#32) (ix2 p e)
      = ∑ k : Fin n, x (ix2 p k) * w (ix2 e k) := by
  subst hd
  exact (Ideal.matmul_constant_zero_apply (Cert.RowOps.rowsDims wf) prec x w (ix2 p e)).trans
    (Cert.RowOps.contraction_rows wf x w p e)

/-- Rows against columns: the entry (p, e) is the sum over k of x(p,k) * w(k,e). -/
theorem cols_product {a b n : ℕ} {φ₁ φ₂ : FTy}
    (wf : DotDims.WF ⟨2, ![a, n]⟩ ⟨2, ![n, b]⟩ ⟨2, ![a, b]⟩ [1] [0] [0] [1] [] [])
    (d : DotDims ⟨2, ![a, n]⟩ ⟨2, ![n, b]⟩ ⟨2, ![a, b]⟩) (hd : d = Cert.ColsMatmul.colsDims wf)
    (prec : Option ContractPrecision)
    (x : FVec Ideal ⟨2, ![a, n]⟩ φ₁) (w : FVec Ideal ⟨2, ![n, b]⟩ φ₂) (p : Fin a) (e : Fin b) :
    FloatOps.matmul d prec x w (constant ⟨2, ![a, b]⟩ .f32 0x00000000#32) (ix2 p e)
      = ∑ k : Fin n, x (ix2 p k) * w (ix2 k e) := by
  subst hd
  exact (Ideal.matmul_constant_zero_apply (Cert.ColsMatmul.colsDims wf) prec x w (ix2 p e)).trans
    (Cert.ColsMatmul.contraction_cols wf x w p e)

/-- The kernel's logit scale is named, and the name denotes 1/T. -/
theorem scale_named : Named.named (F := Ideal) Cert.KernelIdeal.κ "inv_temp" (φ := .f32) 0x41200000#32 = invTemp :=
  IdealRules.named_const.ideal_named_scalar _ _ _ _ rfl

/-! ## Softmax along the rows of a 512 × 64 block -/

/-- A statistic of the 512 rows, kept as a column and broadcast over the 64 slots, reads its row's entry. -/
theorem keep64 (z : FVec Ideal S512 .f32) (r : Fin 512) (n : Fin 64) :
    broadcastTo S512x64 (shapeCast S512x1 z shapeCasts_S512_S512x1) broadcasts_S512x1_S512x64 (ix2 r n) = z (ix1 r) :=
  RowReduce.column_broadcast_apply z _ _ r n

/-- The logits shifted by their row's maximum, exponentiated. -/
def shiftedExp (lg : FVec Ideal S512x64 .f32) : FVec Ideal S512x64 .f32 :=
  exp (subf lg (broadcastTo S512x64 (shapeCast S512x1
    (maximumf (broadcast S512 (Scalar.ofBits .f32 0xFF800000#32))
      (multiReduction .maximumf [1] S512 lg 0xFF800000#32 reduces_S512x64_S512 (.inl rfl) rfl))
    shapeCasts_S512_S512x1) broadcasts_S512x1_S512x64))

theorem shiftedExp_apply (lg : FVec Ideal S512x64 .f32) (r : Fin 512) (n : Fin 64) :
    shiftedExp lg (ix2 r n)
      = Ideal.exp (lg (ix2 r n) - max negInf (RowReduce.foldMax negInf fun j : Fin 64 => lg (ix2 r j))) :=
  congrArg (fun z => Ideal.exp (lg (ix2 r n) - z))
    ((keep64 _ r n).trans
      (congrArg (max negInf) (RowReduce.multiReduction_max_row lg 0xFF800000#32 reduces_S512x64_S512 (.inl rfl) rfl r)))

/-- The kernel's softmax of a block of logits. -/
def softmaxBlk (lg : FVec Ideal S512x64 .f32) : FVec Ideal S512x64 .f32 :=
  divf (shiftedExp lg) (broadcastTo S512x64 (shapeCast S512x1
    (multiReduction .add [1] S512 (shiftedExp lg) 0x00000000#32 reduces_S512x64_S512 (.inl rfl) rfl)
    shapeCasts_S512_S512x1) broadcasts_S512x1_S512x64)

theorem softmaxBlk_apply (lg : FVec Ideal S512x64 .f32) (r : Fin 512) (n : Fin 64) :
    softmaxBlk lg (ix2 r n) = softmaxRow (fun j : Fin 64 => lg (ix2 r j)) n := by
  unfold softmaxRow
  refine congrArg₂ Ideal.div (shiftedExp_apply lg r n) ?_
  refine (keep64 _ r n).trans ?_
  refine (RowReduce.multiReduction_add_row (shiftedExp lg) 0x00000000#32 reduces_S512x64_S512 (.inl rfl) rfl r).trans ?_
  exact Finset.sum_congr rfl fun j _ => shiftedExp_apply lg r j

/-! ## The block's logits, and the retrieved and projected block -/

section Block

variable (x0 : FVec Ideal S1x512x2048 .f32) (mem : FVec Ideal S64x512 .f32) (kw : FVec Ideal S512x2048 .bf16)
  (vw : FVec Ideal S2048x512 .bf16) (gw : FVec Ideal S1x4096 .f32) (gb : FVec Ideal S1x1 .f32)

/-- The block's rows of x as a matrix reads row r of the block. -/
theorem rows_apply (r : Fin 512) (k : Fin 2048) : k0_pay2 x0 (ix2 r k) = x0 (ix3 (0 : Fin 1) r k) :=
  shapeCast_1ab_ab_apply x0 shapeCasts_S1x512x2048_S512x2048 r k

/-- The kernel's logits: rows of x against the key weights, that against the memory, times the named scale. -/
def logitsBlk : FVec Ideal S512x64 .f32 :=
  mulf (matmul dot_S512x512_S64x512_S512x64_1_1_0_0_n_n (some .fp32)
      (matmul dot_S512x2048_S512x2048_S512x512_1_1_0_0_n_n none (truncf .bf16 (k0_pay2 x0) bitsLt_bf16_f32)
        (shapeCast S512x2048 kw shapeCasts_S512x2048_S512x2048) (constant S512x512 .f32 0x00000000#32))
      mem (constant S512x64 .f32 0x00000000#32))
    (broadcast S512x64 (Named.named κ "inv_temp" 0x41200000#32))

theorem logitsBlk_apply (r : Fin 512) (n : Fin 64) :
    logitsBlk x0 mem kw (ix2 r n)
      = logit (fun n m => mem (ix2 n m)) (fun m d => kw (ix2 m d)) (fun d => x0 (ix3 (0 : Fin 1) r d)) n := by
  unfold logitsBlk logit query
  rw [mulf_apply, broadcast_apply, scale_named]
  refine congrArg (· * invTemp) ?_
  refine (rows_product dot_S512x512_S64x512_S512x64_1_1_0_0_n_n_wf _ rfl (some .fp32) _ mem r n).trans ?_
  refine Finset.sum_congr rfl fun m _ => congrArg (· * mem (ix2 n m)) ?_
  refine (rows_product dot_S512x2048_S512x2048_S512x512_1_1_0_0_n_n_wf _ rfl none _ _ r m).trans ?_
  refine Finset.sum_congr rfl fun k _ => congrArg₂ (· * ·) (rows_apply x0 r k) ?_
  exact congrFun (shapeCast_self kw shapeCasts_S512x2048_S512x2048) (ix2 m k)

/-- The kernel's second payload is the projection of the retrieved block. -/
theorem pay3_eq : k0_pay3 x0 kw mem vw
    = matmul dot_S512x512_S2048x512_S512x2048_1_1_0_0_n_n none
        (truncf .bf16 (matmul dot_S512x64_S64x512_S512x512_1_0_0_1_n_n (some .fp32) (softmaxBlk (logitsBlk x0 mem kw)) mem
          (constant S512x512 .f32 0x00000000#32)) bitsLt_bf16_f32)
        (shapeCast S2048x512 vw shapeCasts_S2048x512_S2048x512) (constant S512x2048 .f32 0x00000000#32) := rfl

theorem pay3_apply (r : Fin 512) (d : Fin 2048) :
    k0_pay3 (F := Ideal) x0 kw mem vw (ix2 r d)
      = projected (fun n m => mem (ix2 n m)) (fun m d => kw (ix2 m d)) (fun d m => vw (ix2 d m))
          (fun d => x0 (ix3 (0 : Fin 1) r d)) d := by
  rw [pay3_eq]
  unfold projected retrieved
  refine (rows_product dot_S512x512_S2048x512_S512x2048_1_1_0_0_n_n_wf _ rfl none _ _ r d).trans ?_
  refine Finset.sum_congr rfl fun m _ => congrArg₂ (· * ·) ?_ ?_
  · refine (cols_product dot_S512x64_S64x512_S512x512_1_0_0_1_n_n_wf _ rfl (some .fp32) _ mem r m).trans ?_
    refine Finset.sum_congr rfl fun n _ => congrArg (· * mem (ix2 n m)) ?_
    refine (softmaxBlk_apply _ r n).trans ?_
    exact congrArg (fun f => softmaxRow f n) (funext fun j => logitsBlk_apply x0 mem kw r j)
  · exact congrFun (shapeCast_self vw shapeCasts_S2048x512_S2048x512) (ix2 d m)

/-! ## The gate and the stored block -/

theorem logistic_apply {s : Shape} (v : FVec Ideal s .f32) (i : s.Idx) : logistic v i = Ideal.logistic (v i) := rfl

/-- Row r of x against the first half of the gate weights. -/
theorem pay5_apply (r : Fin 512) :
    k0_pay5 (F := Ideal) x0 gw (ix2 r (0 : Fin 1)) = ∑ k : Fin 2048, x0 (ix3 (0 : Fin 1) r k) * gw (ix2 (0 : Fin 1) (lo k)) := by
  unfold k0_pay5
  refine (RowReduce.shapeCast_column_apply _ shapeCasts_S512_S512x1 r 0).trans ?_
  refine (RowReduce.multiReduction_add_row _ 0x00000000#32 reduces_S512x2048_S512 (.inl rfl) rfl r).trans ?_
  refine Finset.sum_congr rfl fun k _ => ?_
  rw [mulf_apply, rows_apply]
  refine congrArg (x0 (ix3 (0 : Fin 1) r k) * ·) ?_
  refine (broadcastTo_1b_ab_apply _ broadcasts_S1x2048_S512x2048 r k).trans ?_
  exact slice2_axis1_apply 0 gw slices_S1x4096_o0_0_S1x2048 (0 : Fin 1) k (lo k) (by show k.val = 0 + k.val; omega)

/-- The second half of the gate weights laid along the rows. -/
theorem pay6_apply (r : Fin 512) (k : Fin 2048) :
    k0_pay6 (F := Ideal) gw (ix2 r k) = gw (ix2 (0 : Fin 1) (hi k)) := by
  unfold k0_pay6
  refine (broadcastTo_1b_ab_apply _ broadcasts_S1x2048_S512x2048 r k).trans ?_
  exact slice2_axis1_apply 2048 gw slices_S1x4096_o0_2048_S1x2048 (0 : Fin 1) k (hi k) rfl

/-- The gate as a column of the block. -/
def gateCol (v25 : FVec Ideal S512x2048 .f32) (v30 : FVec Ideal S1x1 .f32) (v34 : FVec Ideal S512x1 .f32)
    (v35 : FVec Ideal S512x2048 .f32) : FVec Ideal S512x1 .f32 :=
  logistic (addf (addf v34 (shapeCast S512x1
      (multiReduction .add [1] S512 (mulf v25 v35) 0x00000000#32 reduces_S512x2048_S512 (.inl rfl) rfl)
      shapeCasts_S512_S512x1)) (broadcastTo S512x1 v30 broadcasts_S1x1_S512x1))

theorem gateCol_apply (v25 : FVec Ideal S512x2048 .f32) (v30 : FVec Ideal S1x1 .f32) (v34 : FVec Ideal S512x1 .f32)
    (v35 : FVec Ideal S512x2048 .f32) (r : Fin 512) :
    gateCol v25 v30 v34 v35 (ix2 r (0 : Fin 1))
      = Ideal.logistic ((v34 (ix2 r (0 : Fin 1)) + ∑ k : Fin 2048, v25 (ix2 r k) * v35 (ix2 r k))
          + v30 (ix2 (0 : Fin 1) (0 : Fin 1))) := by
  unfold gateCol
  rw [logistic_apply, addf_apply, addf_apply]
  refine congrArg Ideal.logistic (congrArg₂ (· + ·) (congrArg (v34 (ix2 r (0 : Fin 1)) + ·) ?_) ?_)
  · refine (RowReduce.shapeCast_column_apply _ shapeCasts_S512_S512x1 r 0).trans ?_
    exact RowReduce.multiReduction_add_row (mulf v25 v35) 0x00000000#32 reduces_S512x2048_S512 (.inl rfl) rfl r
  · exact broadcastTo_1b_ab_apply v30 broadcasts_S1x1_S512x1 r 0

/-- The store's payload: the gate times x plus one minus the gate times the projection. -/
theorem pay1_eq (v1 v25 : FVec Ideal S512x2048 .f32) (v30 : FVec Ideal S1x1 .f32) (v34 : FVec Ideal S512x1 .f32)
    (v35 : FVec Ideal S512x2048 .f32) :
    k0_pay1 v1 v25 v30 v34 v35
      = shapeCast S1x512x2048 (addf (mulf (broadcastTo S512x2048 (gateCol v25 v30 v34 v35) broadcasts_S512x1_S512x2048) v1)
          (mulf (broadcastTo S512x2048 (subf (broadcast S512x1 (Scalar.ofBits .f32 0x3F800000#32)) (gateCol v25 v30 v34 v35))
            broadcasts_S512x1_S512x2048) v25)) shapeCasts_S512x2048_S1x512x2048 := rfl

theorem pay1_apply (v1 v25 : FVec Ideal S512x2048 .f32) (v30 : FVec Ideal S1x1 .f32) (v34 : FVec Ideal S512x1 .f32)
    (v35 : FVec Ideal S512x2048 .f32) (u : Fin 1) (r : Fin 512) (d : Fin 2048) :
    k0_pay1 v1 v25 v30 v34 v35 (ix3 u r d)
      = gateCol v25 v30 v34 v35 (ix2 r (0 : Fin 1)) * v1 (ix2 r d)
        + (Ideal.ofBits .f32 0x3F800000#32 - gateCol v25 v30 v34 v35 (ix2 r (0 : Fin 1))) * v25 (ix2 r d) := by
  rw [pay1_eq]
  refine (shapeCast_ab_1ab_apply _ shapeCasts_S512x2048_S1x512x2048 u r d).trans ?_
  rw [addf_apply, mulf_apply, mulf_apply, RowReduce.broadcastTo_column_apply, RowReduce.broadcastTo_column_apply]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output buffer is its one store's payload over the whole input blocks. -/
theorem out_eq : out0_6 (F := Ideal) x0 mem kw vw gw gb
    = k0_pay1 (F := Ideal) (k0_pay2 x0) (k0_pay3 x0 kw mem vw) (k0_pay4 gb) (k0_pay5 x0 gw) (k0_pay6 gw) := by
  unfold out0_6
  rw [View.canon_unit_zero hz3]
  simp only [View.ld_unit_zero (S := S1x512x2048) hz3, View.ld_unit_zero (S := S512x2048) hz2,
    View.ld_unit_zero (S := S64x512) hz2, View.ld_unit_zero (S := S2048x512) hz2,
    View.ld_unit_zero (S := S1x4096) hz2, View.ld_unit_zero (S := S1x1) hz2]

/-- THE STORED BLOCK, entry (u, r, d): the row function at row r of the block of x, read at d. -/
theorem out_apply (u : Fin 1) (r : Fin 512) (d : Fin 2048) :
    out0_6 (F := Ideal) x0 mem kw vw gw gb (ix3 u r d)
      = rowOut (fun n m => mem (ix2 n m)) (fun m d => kw (ix2 m d)) (fun d m => vw (ix2 d m))
          (fun d => gw (ix2 (0 : Fin 1) (lo d))) (fun d => gw (ix2 (0 : Fin 1) (hi d)))
          (gb (ix2 (0 : Fin 1) (0 : Fin 1))) (fun d => x0 (ix3 (0 : Fin 1) r d)) d := by
  rw [out_eq, pay1_apply, gateCol_apply, pay5_apply, rows_apply, pay3_apply]
  unfold rowOut gate
  have hsum : (∑ k : Fin 2048, k0_pay3 (F := Ideal) x0 kw mem vw (ix2 r k) * k0_pay6 (F := Ideal) gw (ix2 r k))
      = ∑ k : Fin 2048, projected (fun n m => mem (ix2 n m)) (fun m d => kw (ix2 m d)) (fun d m => vw (ix2 d m))
          (fun d => x0 (ix3 (0 : Fin 1) r d)) k * gw (ix2 (0 : Fin 1) (hi k)) :=
    Finset.sum_congr rfl fun k _ => congrArg₂ (· * ·) (pay3_apply x0 mem kw vw r k) (pay6_apply gw r k)
  have hb : k0_pay4 (F := Ideal) gb (ix2 (0 : Fin 1) (0 : Fin 1)) = gb (ix2 (0 : Fin 1) (0 : Fin 1)) :=
    congrFun (shapeCast_self gb shapeCasts_S1x1_S1x1) _
  rw [hsum, hb]

end Block

end Cert.MemoryBank.KernelRow

end
-- ==== Proof.KernelBlocks.lean ====
/-
  From the kernel's blocks to its result array.

  The grid has 8 × 8 points.  At point (b, l) the kernel is given rows 512·l … 512·l + 511 of batch b of x, and the
  whole of every other operand (the key and value weights through a change of float format, which is the identity
  on the extended reals; the bias through a reshape of its one entry), and it writes back rows 512·l … 512·l + 511
  of batch b of the result.  An entry of the stored block depends on its own row of x alone (KernelRow), and that
  row is row (b, 512·l + r) of x; so what point (b, l) writes back is its block of ONE array, G of the six
  arguments.  The 64 blocks tile the result array — row p of batch b lies in the block of point (b, p / 512) — so
  after the last point the array is G of the arguments.
-/
import proofs.«130736_j9328668967109_2_alg».proof.Proof.Gen.KernelIdeal.Frame
import proofs.«130736_j9328668967109_2_alg».proof.Proof.Gen.KernelIdeal.Points
import proofs.«130736_j9328668967109_2_alg».proof.Proof.KernelRow
import Idealize.ShloMosaic.Lib.Pipeline.Value
import Idealize.ShloMosaic.Lib.StableHlo.Run
import Idealize.ShloMosaic.Lib.ValueIdx
import Idealize.ShloMosaic.Lib.Tactic

noncomputable section

namespace Cert.MemoryBank.KernelBlocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The row function is a function of its eight arguments. -/
theorem rowOut_congr {mem mem' : Fin 64 → Fin 512 → EReal} {kw kw' : Fin 512 → Fin 2048 → EReal}
    {vw vw' : Fin 2048 → Fin 512 → EReal} {gx gx' gr gr' : Fin 2048 → EReal} {gb gb' : EReal}
    {xr xr' : Fin 2048 → EReal} {d d' : Fin 2048}
    (h1 : mem = mem') (h2 : kw = kw') (h3 : vw = vw') (h4 : gx = gx') (h5 : gr = gr') (h6 : gb = gb')
    (h7 : xr = xr') (h8 : d = d') :
    rowOut mem kw vw gx gr gb xr d = rowOut mem' kw' vw' gx' gr' gb' xr' d' := by
  subst h1 h2 h3 h4 h5 h6 h7 h8; rfl

/-- The result array: `G` of the six arguments as launched. -/
abbrev result (c : Dev nD) : S8x4096x2048.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The index maps over the grid, decided once -/

/-- The block of x moves with the output's block; every other window stays at block 0; the output's block index is
    (b, l, 0) with b, l below 8. -/
theorem index_facts : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_6.index t (0 : Fin 3) ≤ 7 ∧ win0_6.index t (1 : Fin 3) ≤ 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every (b, l) is some point's output block. -/
theorem index_onto : ∀ (q0 : Fin 8) (q1 : Fin 8), ∃ t : Fin cfg0.N, win0_6.index t = ![q0.val, q1.val, 0] :=
  (by decide +kernel : ∀ (q0 : Fin 8) (q1 : Fin 8), ∃ t : Fin grid0.N, win0_6.index t = ![q0.val, q1.val, 0])

/-! ## The arrays the region finds -/

/-- The key weights after the change of float format are the key weights. -/
theorem V_keyw (c : Dev nD) :
    (V m c main_v0 : S512x2048.Idx → EReal) = (m ((c : Thread nD τ).loc main_arg2) : S512x2048.Idx → EReal) := by
  dsimp only [Gen.V, Gen.hostOps0]; after_results; rfl

/-- The value weights after the change of float format are the value weights. -/
theorem V_valw (c : Dev nD) :
    (V m c main_v1 : S2048x512.Idx → EReal) = (m ((c : Thread nD τ).loc main_arg3) : S2048x512.Idx → EReal) := by
  dsimp only [Gen.V, Gen.hostOps0]; after_results; rfl

/-- The reshaped bias holds the bias's one entry. -/
theorem V_bias (c : Dev nD) :
    (V m c main_v2 : S1x1.Idx → EReal) (ix2 (0 : Fin 1) (0 : Fin 1))
      = (m ((c : Thread nD τ).loc main_arg5) : S1.Idx → EReal) (ix1 (0 : Fin 1)) := by
  have e : (V m c main_v2 : S1x1.Idx → EReal)
      = shapeCast S1x1 (m ((c : Thread nD τ).loc main_arg5) : S1.Idx → EReal) shapeCasts_S1_S1x1 := by
    dsimp only [Gen.V, Gen.hostOps0]; after_results; rfl
  rw [e]
  exact shapeCast_apply _ _ _ _ rfl

/-! ## What each point writes back -/

/-- WHAT POINT t WRITES BACK is its block of `result`: entry (u, r, d) of the stored block is the row function at row r
    of the point's block of x, which is row (b, 512·l + r) of x, and every other operand's block is the whole operand. -/
theorem flushed_eq (c : Dev nD) (t : Fin cfg0.N) :
    (dats m 0 c).flushed 6 t = ((cfg0.win 6).blk t).view.read (Elt Ideal) (result m c) := by
  obtain ⟨e00, e01, e02, e62, b0, b1, e10, e11, e20, e21, e30, e31, e40, e41, e50, e51⟩ := index_facts t
  have z1 : ((0 : Fin 1) : Nat) = 0 := rfl
  show (cfg0.win 6).cut (grid0.coords t) ((dats m 0 c).after 6 t) = _
  rw [after0_6]
  funext y
  obtain ⟨u, r, d, rfl⟩ : ∃ (u : Fin 1) (r : Fin 512) (d : Fin 2048), y = ix3 u r d := ⟨y 0, y 1, y 2, eq_ix3 y⟩
  have hu : u.val = 0 := by omega
  show out0_6 (iblk m c 0 t) (iblk m c 1 t) (iblk m c 2 t) (iblk m c 3 t) (iblk m c 4 t) (iblk m c 5 t) (ix3 u r d)
    = result m c (((cfg0.win 6).blk t).view.emb (ix3 u r d))
  refine (KernelRow.out_apply (iblk m c 0 t) (iblk m c 1 t) (iblk m c 2 t) (iblk m c 3 t) (iblk m c 4 t) (iblk m c 5 t)
    u r d).trans ?_
  show _ = rowOut _ _ _ _ _ _ _ _
  refine rowOut_congr ?_ ?_ ?_ ?_ ?_ ?_ ?_ ?_
  · -- the memory: the whole array
    funext n j
    show V m c main_arg1 (((cfg0.win 1).blk t).view.emb (ix2 n j)) = _
    rw [V_main_arg1]
    refine congrArg _ (funext fun a => Fin.ext ?_)
    match a with
    | ⟨0, _⟩ => show win0_1.index t (0 : Fin 2) * 64 + 1 * n.val = n.val; omega
    | ⟨1, _⟩ => show win0_1.index t (1 : Fin 2) * 512 + 1 * j.val = j.val; omega
  · -- the key weights: the whole array
    funext a k
    show V m c main_v0 (((cfg0.win 2).blk t).view.emb (ix2 a k)) = _
    refine (congrFun (V_keyw m c) _).trans (congrArg _ (funext fun ax => Fin.ext ?_))
    match ax with
    | ⟨0, _⟩ => show win0_2.index t (0 : Fin 2) * 512 + 1 * a.val = a.val; omega
    | ⟨1, _⟩ => show win0_2.index t (1 : Fin 2) * 2048 + 1 * k.val = k.val; omega
  · -- the value weights: the whole array
    funext a k
    show V m c main_v1 (((cfg0.win 3).blk t).view.emb (ix2 a k)) = _
    refine (congrFun (V_valw m c) _).trans (congrArg _ (funext fun ax => Fin.ext ?_))
    match ax with
    | ⟨0, _⟩ => show win0_3.index t (0 : Fin 2) * 2048 + 1 * a.val = a.val; omega
    | ⟨1, _⟩ => show win0_3.index t (1 : Fin 2) * 512 + 1 * k.val = k.val; omega
  · -- the first half of the gate weights
    funext k
    show V m c main_arg4 (((cfg0.win 4).blk t).view.emb (ix2 (0 : Fin 1) (lo k))) = _
    rw [V_main_arg4]
    refine congrArg _ (funext fun ax => Fin.ext ?_)
    match ax with
    | ⟨0, _⟩ => show win0_4.index t (0 : Fin 2) * 1 + 1 * ((0 : Fin 1) : Nat) = ((0 : Fin 1) : Nat); omega
    | ⟨1, _⟩ => show win0_4.index t (1 : Fin 2) * 4096 + 1 * (lo k).val = (lo k).val; omega
  · -- the second half of the gate weights
    funext k
    show V m c main_arg4 (((cfg0.win 4).blk t).view.emb (ix2 (0 : Fin 1) (hi k))) = _
    rw [V_main_arg4]
    refine congrArg _ (funext fun ax => Fin.ext ?_)
    match ax with
    | ⟨0, _⟩ => show win0_4.index t (0 : Fin 2) * 1 + 1 * ((0 : Fin 1) : Nat) = ((0 : Fin 1) : Nat); omega
    | ⟨1, _⟩ => show win0_4.index t (1 : Fin 2) * 4096 + 1 * (hi k).val = (hi k).val; omega
  · -- the bias
    show V m c main_v2 (((cfg0.win 5).blk t).view.emb (ix2 (0 : Fin 1) (0 : Fin 1))) = _
    refine (congrArg (V m c main_v2) (funext fun ax => Fin.ext ?_ :
      ((cfg0.win 5).blk t).view.emb (ix2 (0 : Fin 1) (0 : Fin 1)) = ix2 (0 : Fin 1) (0 : Fin 1))).trans (V_bias m c)
    match ax with
    | ⟨0, _⟩ => show win0_5.index t (0 : Fin 2) * 1 + 1 * ((0 : Fin 1) : Nat) = ((0 : Fin 1) : Nat); omega
    | ⟨1, _⟩ => show win0_5.index t (1 : Fin 2) * 1 + 1 * ((0 : Fin 1) : Nat) = ((0 : Fin 1) : Nat); omega
  · -- row r of the block of x is row (b, 512·l + r) of x
    funext k
    show V m c main_arg0 (((cfg0.win 0).blk t).view.emb (ix3 (0 : Fin 1) r k)) = _
    rw [V_main_arg0]
    refine congrArg _ (funext fun ax => Fin.ext ?_)
    match ax with
    | ⟨0, _⟩ => show win0_0.index t (0 : Fin 3) * 1 + 1 * ((0 : Fin 1) : Nat) = win0_6.index t (0 : Fin 3) * 1 + 1 * u.val; omega
    | ⟨1, _⟩ => show win0_0.index t (1 : Fin 3) * 512 + 1 * r.val = win0_6.index t (1 : Fin 3) * 512 + 1 * r.val; omega
    | ⟨2, _⟩ => show win0_0.index t (2 : Fin 3) * 2048 + 1 * k.val = k.val; omega
  · -- the column
    exact Fin.ext (by show d.val = win0_6.index t (2 : Fin 3) * 2048 + 1 * d.val; omega)

/-! ## The blocks tile the array -/

/-- An index is in point t's block iff each coordinate is in the block's range on its axis. -/
theorem mem_blk (t : Fin cfg0.N) (i : S8x4096x2048.Idx) :
    i ∈ ((cfg0.win 6).blk t).view.set ↔ ∀ a : Fin 3, win0_6.index t a * S1x512x2048.size a ≤ (i a).val
      ∧ (i a).val < win0_6.index t a * S1x512x2048.size a + S1x512x2048.size a := by
  show i ∈ ((View.whole main_v3).slice (win0_6.rect t)).set ↔ _
  rw [View.set_slice_whole, Rect.mem_set_unit]
  exact Iff.rfl

/-- Row p of batch b lies in the block of the point whose output block is (b, p / 512, 0). -/
theorem cover (i : S8x4096x2048.Idx) :
    ∃ t : Fin cfg0.N, (cfg0.win 6).flush t = true ∧ i ∈ ((cfg0.win 6).blk t).view.set := by
  have hi0 : (i 0).val < 8 := (i 0).isLt
  have hi1 : (i 1).val < 4096 := (i 1).isLt
  have hi2 : (i 2).val < 2048 := (i 2).isLt
  obtain ⟨t, ht⟩ := index_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 2048 ≤ (i 2).val ∧ (i 2).val < win0_6.index t (2 : Fin 3) * 2048 + 2048; omega

/-- THE ARRAY after the run is `result`. -/
theorem final (c : Dev nD) : (dats m 0 c).arrAt 6 cfg0.N = result m c :=
  (dats m 0 c).arrAt_eq_of_cover 6 (result m c) (fun t _ => flushed_eq m c t) (cover)

/-! ## The run, read -/

/-- Every weakly fair execution of the kernel's program terminates with the result array at `result` and the six
    arguments as launched: the frame run, its output array read by `final`, each argument read off the frame's post
    (a staged input keeps its entry contents; an array no window stages is left as the region found it). -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.MemoryBank.KernelBlocks

end
-- ==== Proof.RefRow.lean ====
/-
  The reference, row by row.

  The reference computes the same quantities on whole [8, 4096, ·] arrays.  Each of its contractions runs over the
  last axis of the left operand, so its entry at (b, p, ·) depends on row (b, p) alone; its row maximum and row sum
  are a fold of max and a finite sum over the 64 slots of that row, the sum preceded by a zero; its sigmoid is
  spelt 1 / (1 + exp(-z)), which is the logistic function; and it divides the logits by the temperature T where
  the row function multiplies by 1/T — the same extended real, since T is a nonzero real.  So the entry
  (b, p, d) of its result is the row function of RowSpec at row (b, p) of x.
-/
import proofs.«130736_j9328668967109_2_alg».proof.Proof.Gen.ReferenceIdeal.Read
import proofs.«130736_j9328668967109_2_alg».proof.Proof.RowSpec
import proofs.«130736_j9328668967109_2_alg».proof.Proof.LibRowReduce
import Idealize.ShloMosaic.PureOps.Ideal.Laws
import Idealize.ShloMosaic.Lib.ValueIdx

noncomputable section

open scoped BigOperators

namespace Cert.MemoryBank.RefRow

open Idealize.ShloMosaic Idealize.ShloMosaic.ValueIdx Cert.ReferenceIdeal Cert.ReferenceIdeal.Gen Cert.ReferenceIdeal.Read

/-! ## Indices with equal coordinates are equal -/

theorem idx3_ext {n0 n1 n2 : ℕ} {f g : (⟨3, ![n0, n1, n2]⟩ : Shape).Idx} (h0 : f 0 = g 0) (h1 : f 1 = g 1)
    (h2 : f 2 = g 2) : f = g := by
  funext a
  match a with
  | ⟨0, _⟩ => exact h0
  | ⟨1, _⟩ => exact h1
  | ⟨2, _⟩ => exact h2

theorem idx2_ext {n0 n1 : ℕ} {f g : (⟨2, ![n0, n1]⟩ : Shape).Idx} (h0 : f 0 = g 0) (h1 : f 1 = g 1) : f = g := by
  funext a
  match a with
  | ⟨0, _⟩ => exact h0
  | ⟨1, _⟩ => exact h1

theorem idx1_ext {n0 : ℕ} {f g : (⟨1, ![n0]⟩ : Shape).Idx} (h0 : f 0 = g 0) : f = g := by
  funext a
  match a with
  | ⟨0, _⟩ => exact h0

section Stages

variable (x0 : (⟨3, ![8, 4096, 2048]⟩ : Shape).Idx → EReal) (x1 : (⟨2, ![64, 512]⟩ : Shape).Idx → EReal)
  (x2 : (⟨2, ![512, 2048]⟩ : Shape).Idx → EReal) (x3 : (⟨2, ![2048, 512]⟩ : Shape).Idx → EReal)
  (x4 : (⟨2, ![1, 4096]⟩ : Shape).Idx → EReal) (x5 : (⟨1, ![1]⟩ : Shape).Idx → EReal)
  (b : Fin 8) (p : Fin 4096)

/-- The query at row (b, p). -/
theorem query_ref (m : Fin 512) :
    val_main_v0 (F := Ideal) x0 x2 (ix3 b p m) = query (fun m d => x2 (ix2 m d)) (fun d => x0 (ix3 b p d)) m := by
  rw [val_main_v0_apply]
  unfold query
  exact Finset.sum_congr rfl fun k _ =>
    congrArg₂ (· * ·) (congrArg x0 (idx3_ext rfl rfl rfl : lidx_main_v0 (ix3 b p m) k = ix3 b p k))
      (congrArg x2 (idx2_ext rfl rfl : ridx_main_v0 (ix3 b p m) k = ix2 m k))

/-- The logits at row (b, p): the quotient by the temperature is the product with its reciprocal. -/
theorem logit_ref (n : Fin 64) :
    val_main_v3 (F := Ideal) x0 x1 x2 (ix3 b p n)
      = logit (fun n m => x1 (ix2 n m)) (fun m d => x2 (ix2 m d)) (fun d => x0 (ix3 b p d)) n := by
  rw [val_main_v3_apply, val_main_v2_apply, val_main_v1_apply]
  show Ideal.div _ (Ideal.ofBits .f32 0x3DCCCCCD#32) = _
  rw [div_temp]
  unfold logit
  refine congrArg (· * invTemp) (Finset.sum_congr rfl fun m _ => congrArg₂ (· * ·) ?_
    (congrArg x1 (idx2_ext rfl rfl : ridx_main_v1 (ix3 b p n) m = ix2 n m)))
  exact (congrArg (val_main_v0 (F := Ideal) x0 x2) (idx3_ext rfl rfl rfl : lidx_main_v1 (ix3 b p n) m = ix3 b p m)).trans
    (query_ref x0 x2 b p m)

/-- The row maximum at row (b, p): the fold of max over the row's logits from minus infinity. -/
theorem max_ref :
    val_main_v6 (F := Ideal) x0 x1 x2 (ix2 b p)
      = max negInf (RowReduce.foldMax negInf fun j : Fin 64 => val_main_v3 (F := Ideal) x0 x1 x2 (ix3 b p j)) := by
  rw [val_main_v6_apply]
  show max (val_main_v5 (F := Ideal) (ix2 b p)) (val_main_v4 (F := Ideal) x0 x1 x2 (ix2 b p)) = _
  rw [val_main_v5_apply]
  unfold val_main_v4
  rw [RowReduce.hostReduce_max_row (val_main_v3 (F := Ideal) x0 x1 x2) (val_main_cst_0 (F := Ideal))
    reducesTo_S8x4096x64_S8x4096_d2 (by decide) h_S_ b p]
  rfl

/-- The shifted exponentials at row (b, p). -/
theorem exp_ref (n : Fin 64) :
    val_main_v10 (F := Ideal) x0 x1 x2 (ix3 b p n)
      = Ideal.exp (val_main_v3 (F := Ideal) x0 x1 x2 (ix3 b p n)
          - max negInf (RowReduce.foldMax negInf fun j : Fin 64 => val_main_v3 (F := Ideal) x0 x1 x2 (ix3 b p j))) := by
  rw [val_main_v10_apply, val_main_v9_apply, val_main_v8_apply, val_main_v7_apply,
    show idx_main_v7 (idx_main_v8 (ix3 b p n)) = ix2 b p from idx2_ext rfl rfl, max_ref]
  rfl

/-- The attention weights at row (b, p): the softmax of the row's logits. -/
theorem softmax_ref (n : Fin 64) :
    val_main_v14 (F := Ideal) x0 x1 x2 (ix3 b p n)
      = softmaxRow (logit (fun n m => x1 (ix2 n m)) (fun m d => x2 (ix2 m d)) (fun d => x0 (ix3 b p d))) n := by
  rw [val_main_v14_apply, val_main_v13_apply, val_main_v12_apply,
    show idx_main_v12 (idx_main_v13 (ix3 b p n)) = ix2 b p from idx2_ext rfl rfl, val_main_v11_apply]
  show Ideal.div (val_main_v10 (F := Ideal) x0 x1 x2 (ix3 b p n))
      (Ideal.ofBits .f32 0x00000000#32 + ∑ k : Fin 64, val_main_v10 (F := Ideal) x0 x1 x2 (idx_main_v11 (ix2 b p) k)) = _
  rw [Ideal.ofBits_zero_f32, zero_add]
  have hlg : (fun j : Fin 64 => val_main_v3 (F := Ideal) x0 x1 x2 (ix3 b p j))
      = logit (fun n m => x1 (ix2 n m)) (fun m d => x2 (ix2 m d)) (fun d => x0 (ix3 b p d)) :=
    funext fun j => logit_ref x0 x1 x2 b p j
  unfold softmaxRow
  rw [← hlg]
  refine congrArg₂ Ideal.div (exp_ref x0 x1 x2 b p n) (Finset.sum_congr rfl fun k _ => ?_)
  exact (congrArg (val_main_v10 (F := Ideal) x0 x1 x2) (idx3_ext rfl rfl rfl : idx_main_v11 (ix2 b p) k = ix3 b p k)).trans
    (exp_ref x0 x1 x2 b p k)

/-- The retrieved vector at row (b, p). -/
theorem retrieved_ref (m : Fin 512) :
    val_main_v15 (F := Ideal) x0 x1 x2 (ix3 b p m)
      = retrieved (fun n m => x1 (ix2 n m)) (fun m d => x2 (ix2 m d)) (fun d => x0 (ix3 b p d)) m := by
  rw [val_main_v15_apply]
  unfold retrieved
  refine Finset.sum_congr rfl fun n _ => congrArg₂ (· * ·) ?_
    (congrArg x1 (idx2_ext rfl rfl : ridx_main_v15 (ix3 b p m) n = ix2 n m))
  exact (congrArg (val_main_v14 (F := Ideal) x0 x1 x2) (idx3_ext rfl rfl rfl : lidx_main_v15 (ix3 b p m) n = ix3 b p n)).trans
    (softmax_ref x0 x1 x2 b p n)

/-- Its projection at row (b, p). -/
theorem projected_ref (d : Fin 2048) :
    val_main_v16 (F := Ideal) x0 x1 x2 x3 (ix3 b p d)
      = projected (fun n m => x1 (ix2 n m)) (fun m d => x2 (ix2 m d)) (fun d m => x3 (ix2 d m)) (fun d => x0 (ix3 b p d)) d := by
  rw [val_main_v16_apply]
  unfold projected
  refine Finset.sum_congr rfl fun m _ => congrArg₂ (· * ·) ?_
    (congrArg x3 (idx2_ext rfl rfl : ridx_main_v16 (ix3 b p d) m = ix2 d m))
  exact (congrArg (val_main_v15 (F := Ideal) x0 x1 x2) (idx3_ext rfl rfl rfl : lidx_main_v16 (ix3 b p d) m = ix3 b p m)).trans
    (retrieved_ref x0 x1 x2 b p m)

/-- The gate at row (b, p): the reference's 1 / (1 + exp(-z)) is the logistic function of z. -/
theorem gate_ref (u : Fin 1) :
    val_main_v30 (F := Ideal) x0 x1 x2 x3 x4 x5 (ix3 b p u)
      = gate (fun n m => x1 (ix2 n m)) (fun m d => x2 (ix2 m d)) (fun d m => x3 (ix2 d m))
          (fun d => x4 (ix2 (0 : Fin 1) (lo d))) (fun d => x4 (ix2 (0 : Fin 1) (hi d))) (x5 (ix1 (0 : Fin 1)))
          (fun d => x0 (ix3 b p d)) := by
  have h18 : val_main_v18 (F := Ideal) x0 x4 (ix3 b p u)
      = ∑ d : Fin 2048, x0 (ix3 b p d) * x4 (ix2 (0 : Fin 1) (lo d)) := by
    rw [val_main_v18_apply]
    refine Finset.sum_congr rfl fun k _ => congrArg₂ (· * ·)
      (congrArg x0 (idx3_ext rfl rfl rfl : lidx_main_v18 (ix3 b p u) k = ix3 b p k)) ?_
    rw [val_main_v17_apply]
    exact congrArg x4 (idx2_ext (Fin.ext (by show u.val = 0; omega)) rfl : idx_main_v17 (ridx_main_v18 (ix3 b p u) k) = ix2 (0 : Fin 1) (lo k))
  have h20 : val_main_v20 (F := Ideal) x0 x1 x2 x3 x4 (ix3 b p u)
      = ∑ d : Fin 2048, projected (fun n m => x1 (ix2 n m)) (fun m d => x2 (ix2 m d)) (fun d m => x3 (ix2 d m))
          (fun d => x0 (ix3 b p d)) d * x4 (ix2 (0 : Fin 1) (hi d)) := by
    rw [val_main_v20_apply]
    refine Finset.sum_congr rfl fun k _ => congrArg₂ (· * ·) ?_ ?_
    · exact (congrArg (val_main_v16 (F := Ideal) x0 x1 x2 x3) (idx3_ext rfl rfl rfl : lidx_main_v20 (ix3 b p u) k = ix3 b p k)).trans
        (projected_ref x0 x1 x2 x3 b p k)
    · rw [val_main_v19_apply]
      exact congrArg x4 (idx2_ext (Fin.ext (by show u.val = 0; omega)) rfl : idx_main_v19 (ridx_main_v20 (ix3 b p u) k) = ix2 (0 : Fin 1) (hi k))
  have h23 : val_main_v23 (F := Ideal) x5 (ix3 b p u) = x5 (ix1 (0 : Fin 1)) := by
    rw [val_main_v23_apply, val_main_v22_apply]
    exact congrArg x5 (idx1_ext (Fin.ext rfl) : idx_main_v22 (idx_main_v23 (ix3 b p u)) = ix1 (0 : Fin 1))
  rw [val_main_v30_apply, val_main_v29_apply, val_main_v28_apply, val_main_v27_apply, val_main_v26_apply,
    val_main_v25_apply, val_main_v24_apply, val_main_v21_apply, h18, h20, h23]
  show Ideal.div (Ideal.ofBits .f32 0x3F800000#32)
    (Ideal.ofBits .f32 0x3F800000#32 + Ideal.exp (-(_ + _ + _))) = _
  rw [Consts.word_one]
  rfl

/-- THE REFERENCE'S RESULT, entry (b, p, d): the row function at row (b, p) of x, read at d. -/
theorem out_ref (d : Fin 2048) :
    val_main_v37 (F := Ideal) x0 x1 x2 x3 x4 x5 (ix3 b p d) = G x0 x1 x2 x3 x4 x5 (ix3 b p d) := by
  rw [val_main_v37_apply, val_main_v32_apply, val_main_v36_apply, val_main_v31_apply, val_main_v35_apply,
    val_main_v34_apply, val_main_v33_apply,
    show idx_main_v31 (ix3 b p d) = ix3 b p (0 : Fin 1) from idx3_ext rfl rfl rfl,
    show idx_main_v35 (ix3 b p d) = ix3 b p (0 : Fin 1) from idx3_ext rfl rfl rfl,
    gate_ref, projected_ref]
  rfl

end Stages

/-- The reference's result array is `G` of its arguments. -/
theorem result_eq (x0 : (⟨3, ![8, 4096, 2048]⟩ : Shape).Idx → EReal) (x1 : (⟨2, ![64, 512]⟩ : Shape).Idx → EReal)
    (x2 : (⟨2, ![512, 2048]⟩ : Shape).Idx → EReal) (x3 : (⟨2, ![2048, 512]⟩ : Shape).Idx → EReal)
    (x4 : (⟨2, ![1, 4096]⟩ : Shape).Idx → EReal) (x5 : (⟨1, ![1]⟩ : Shape).Idx → EReal) :
    val_main_v37 (F := Ideal) x0 x1 x2 x3 x4 x5 = G x0 x1 x2 x3 x4 x5 := by
  funext i
  rw [eq_ix3 i]
  exact out_ref x0 x1 x2 x3 x4 x5 (i 0) (i 1) (i 2)

end Cert.MemoryBank.RefRow

end
-- ==== Proof.lean ====
/-
  Attention over a memory bank with a gated residual: the kernel against the reference, on the extended reals.

  Both programs compute, for every row of x, the row function of RowSpec: a query against the key weights, logits
  against the memory scaled by the reciprocal of the temperature, a softmax over the 64 slots, the retrieved vector
  and its projection, a logistic gate, and the gated combination of the row with the projection.  The kernel does
  it block by block over an 8 × 8 grid (KernelRow, KernelBlocks), the reference on whole arrays (RefRow); both
  result arrays are the one function G of the six arguments.

  The two spellings differ in one place.  The reference divides the logits by the temperature T, the
  single-precision number nearest 0.1; the kernel multiplies them by a constant its source defines as 1/T, which
  the claim names as exactly that reciprocal.  Dividing by a nonzero real is multiplying by its reciprocal on every
  extended real, so no finiteness of the inputs is used anywhere.
-/
import proofs.«130736_j9328668967109_2_alg».proof.Defs
import proofs.«130736_j9328668967109_2_alg».proof.Proof.Gen.Kernel
import proofs.«130736_j9328668967109_2_alg».proof.Proof.Gen.Kernel.Frame
import proofs.«130736_j9328668967109_2_alg».proof.Proof.Gen.KernelIdeal
import proofs.«130736_j9328668967109_2_alg».proof.Proof.Gen.KernelIdeal.Frame
import proofs.«130736_j9328668967109_2_alg».proof.Proof.Gen.ReferenceIdeal
import proofs.«130736_j9328668967109_2_alg».proof.Proof.Gen.Pre_finite_inputs
import proofs.«130736_j9328668967109_2_alg».proof.Proof.Gen.ReferenceIdeal.Run
import proofs.«130736_j9328668967109_2_alg».proof.Proof.Gen.ReferenceIdeal.Read
import proofs.«130736_j9328668967109_2_alg».proof.Proof.KernelBlocks
import proofs.«130736_j9328668967109_2_alg».proof.Proof.RefRow
import Idealize.ShloMosaic.PureOps.IdealRules
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the logit scale is named, and the name denotes the reciprocal of the
    temperature. -/
theorem preserves : Cert.preserves_Kernel_KernelIdeal :=
  IdealRules.named_const.statement Cert.KernelIdeal.κ "inv_temp" .f32 0x41200000#32
    ((134217728 / 13421773 : ℝ) : EReal) rfl

/-- From memories that agree on the six arguments, both programs end with their result arrays at `G` of the
    arguments. -/
theorem algebraic : Cert.algebraic_KernelIdeal_ReferenceIdeal := by
  intro m ρ m' ρ' _ hagree
  refine ⟨fun c => Cert.MemoryBank.KernelBlocks.result m c, Cert.MemoryBank.KernelBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.MemoryBank.RefRow.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
